-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64x64 : Shape := ⟨4, ![8, 512, 64, 64]⟩
abbrev S256x512x1x1 : Shape := ⟨4, ![256, 512, 1, 1]⟩
abbrev S_ : Shape := ⟨0, ![]⟩

class Facts : Prop where
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel
  bcast_S_S256x512x1x1 : S_.BroadcastsInDim S256x512x1x1 (![] : Fin 0 → Fin S256x512x1x1.rank)
  reducesTo_S256x512x1x1_S_d0_1_2_3 : S256x512x1x1.ReducesTo [0, 1, 2, 3] S_

variable [Facts]

def fn {F : FTy → Type} [FloatOps F] (main_arg0 : FVec F S8x512x64x64 .f32) (main_arg1 : FVec F S256x512x1x1 .f32) : IVec S_ 1 :=
  let main_v0 : FVec F S8x512x64x64 .f32 := Host.absf main_arg0
  let main_cst : FVec F S_ .f32 := constant S_ .f32 0x7F800000#32
  let main_v1 : FVec F S8x512x64x64 .f32 := broadcastInDim S8x512x64x64 ![] bcast_S_S8x512x64x64 main_cst
  let main_v2 : IVec S8x512x64x64 1 := cmpf .olt main_v0 main_v1
  let main_c : IVec S_ 1 := constantI S_ 1 1#1
  let main_v3 : IVec S_ 1 := (fun x v => Host.reduce IntOp.andi x v reducesTo_S8x512x64x64_S_d0_1_2_3 h_S_) main_v2 main_c
  let main_v4 : FVec F S256x512x1x1 .f32 := Host.absf main_arg1
  let main_cst_0 : FVec F S_ .f32 := constant S_ .f32 0x7F800000#32
  let main_v5 : FVec F S256x512x1x1 .f32 := broadcastInDim S256x512x1x1 ![] bcast_S_S256x512x1x1 main_cst_0
  let main_v6 : IVec S256x512x1x1 1 := cmpf .olt main_v4 main_v5
  let main_c_1 : IVec S_ 1 := constantI S_ 1 1#1
  let main_v7 : IVec S_ 1 := (fun x v => Host.reduce IntOp.andi x v reducesTo_S256x512x1x1_S_d0_1_2_3 h_S_) main_v6 main_c_1
  let main_v8 : IVec S_ 1 := andi main_v3 main_v7
  main_v8
-- ==== Kernel.lean ====
abbrev S8x512x64x64 : Shape := ⟨4, ![8, 512, 64, 64]⟩
abbrev S256x512x1x1 : Shape := ⟨4, ![256, 512, 1, 1]⟩
abbrev S8x32768x64 : Shape := ⟨3, ![8, 32768, 64]⟩
abbrev S256x512 : Shape := ⟨2, ![256, 512]⟩
abbrev S8x16384x64 : Shape := ⟨3, ![8, 16384, 64]⟩
abbrev S1x32768x64 : Shape := ⟨3, ![1, 32768, 64]⟩
abbrev S1x16384x64 : Shape := ⟨3, ![1, 16384, 64]⟩
abbrev S32768x64 : Shape := ⟨2, ![32768, 64]⟩
abbrev S512x64x64 : Shape := ⟨3, ![512, 64, 64]⟩
abbrev S512x64 : Shape := ⟨2, ![512, 64]⟩
abbrev S512 : Shape := ⟨1, ![512]⟩
abbrev S512x1 : Shape := ⟨2, ![512, 1]⟩
abbrev S256x1 : Shape := ⟨2, ![256, 1]⟩
abbrev S256x1x1 : Shape := ⟨3, ![256, 1, 1]⟩
abbrev S256x64x64 : Shape := ⟨3, ![256, 64, 64]⟩
abbrev S16384x64 : Shape := ⟨2, ![16384, 64]⟩
abbrev S8x256x64x64 : Shape := ⟨4, ![8, 256, 64, 64]⟩

abbrev nBuf : Space → Nat
  | .hbm => 6
  | .vmem => 5
  | .smem => 0
  | _ => 0

abbrev bufTy : (tb : Table) → Fin (tcTables nBuf tb) → BufTy
  | .hbm, ⟨0, _⟩ => ⟨S8x512x64x64, .f32⟩
  | .hbm, ⟨1, _⟩ => ⟨S256x512x1x1, .f32⟩
  | .hbm, ⟨2, _⟩ => ⟨S8x32768x64, .f32⟩
  | .hbm, ⟨3, _⟩ => ⟨S256x512, .f32⟩
  | .hbm, ⟨4, _⟩ => ⟨S8x16384x64, .f32⟩
  | .hbm, ⟨5, _⟩ => ⟨S8x256x64x64, .f32⟩
  | .local _ .vmem, ⟨0, _⟩ => ⟨S1x32768x64, .f32⟩
  | .local _ .vmem, ⟨1, _⟩ => ⟨S1x32768x64, .f32⟩
  | .local _ .vmem, ⟨2, _⟩ => ⟨S256x512, .f32⟩
  | .local _ .vmem, ⟨3, _⟩ => ⟨S1x16384x64, .f32⟩
  | .local _ .vmem, ⟨4, _⟩ => ⟨S1x16384x64, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x512x64x64_S8x32768x64 : S8x512x64x64.ShapeCasts S8x32768x64
  shapeCasts_S256x512x1x1_S256x512 : S256x512x1x1.ShapeCasts S256x512
  inb_S1x32768x64_S1x32768x64_0_0_0 : ∀ a, (![0, 0, 0] : Fin 3 → Nat) a + S1x32768x64.size a ≤ S1x32768x64.size a
  h_S1x32768x64 : 0 < S1x32768x64.numel
  shapeCasts_S1x32768x64_S32768x64 : S1x32768x64.ShapeCasts S32768x64
  shapeCasts_S32768x64_S512x64x64 : S32768x64.ShapeCasts S512x64x64
  reduces_S512x64x64_S512x64 : S512x64x64.Reduces [1] S512x64
  reduces_S512x64_S512 : S512x64.Reduces [1] S512
  shapeCasts_S512_S512x1 : S512.ShapeCasts S512x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S256x1_S256x1x1 : S256x1.ShapeCasts S256x1x1
  shapeCasts_S256x1x1_S256x1x1 : S256x1x1.ShapeCasts S256x1x1
  broadcasts_S256x1x1_S256x64x64 : S256x1x1.Broadcasts S256x64x64
  shapeCasts_S256x64x64_S16384x64 : S256x64x64.ShapeCasts S16384x64
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  shapeCasts_S16384x64_S1x16384x64 : S16384x64.ShapeCasts S1x16384x64
  shapeCasts_S8x16384x64_S8x256x64x64 : S8x16384x64.ShapeCasts S8x256x64x64
  dot_S256x512_S512x1_S256x1_1_0_0_1_n_n_wf : DotDims.WF S256x512 S512x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768x64.size a ≤ S8x32768x64.size a
  hwx0_0 : ∀ i : grid0.Coords, EltTy.bits .f32 = 32 ∨ (Rect.block (s := S8x32768x64) S1x32768x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x64.size a ≤ S8x16384x64.size a
  hwx0_2 : ∀ i : grid0.Coords, EltTy.bits .f32 = 32 ∨ (Rect.block (s := S8x16384x64) S1x16384x64.size (cc0_transform_2 i) (hinb0_2 i)).WholeWords (EltTy.packing .f32)

variable [Facts₀]

def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf

abbrev win0_0 : Pipeline.Window sig grid0 :=
  Pipeline.Window.ofSpec (Memref.whole main_v0) S1x32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x64x64 : Shape := ⟨4, ![8, 512, 64, 64]⟩
abbrev S256x512x1x1 : Shape := ⟨4, ![256, 512, 1, 1]⟩
abbrev S8x512x4096 : Shape := ⟨3, ![8, 512, 4096]⟩
abbrev S8x1x512x1 : Shape := ⟨4, ![8, 1, 512, 1]⟩
abbrev S1x512x4096 : Shape := ⟨3, ![1, 512, 4096]⟩
abbrev S1x1x512x1 : Shape := ⟨4, ![1, 1, 512, 1]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S_ : Shape := ⟨0, ![]⟩
abbrev S8x512x1 : Shape := ⟨3, ![8, 512, 1]⟩
abbrev S8x512 : Shape := ⟨2, ![8, 512]⟩
abbrev S256x512 : Shape := ⟨2, ![256, 512]⟩
abbrev S512x256 : Shape := ⟨2, ![512, 256]⟩
abbrev S8x256 : Shape := ⟨2, ![8, 256]⟩
abbrev S8x256x1 : Shape := ⟨3, ![8, 256, 1]⟩
abbrev S8x256x4096 : Shape := ⟨3, ![8, 256, 4096]⟩
abbrev S1x256x1 : Shape := ⟨3, ![1, 256, 1]⟩
abbrev S1x256x4096 : Shape := ⟨3, ![1, 256, 4096]⟩
abbrev S8x256x64x64 : Shape := ⟨4, ![8, 256, 64, 64]⟩

abbrev nBuf : Space → Nat
  | .hbm => 19
  | .vmem => 9
  | .smem => 0
  | _ => 0

abbrev bufTy : (tb : Table) → Fin (tcTables nBuf tb) → BufTy
  | .hbm, ⟨0, _⟩ => ⟨S8x512x64x64, .f32⟩
  | .hbm, ⟨1, _⟩ => ⟨S256x512x1x1, .f32⟩
  | .hbm, ⟨2, _⟩ => ⟨S8x512x4096, .f32⟩
  | .hbm, ⟨3, _⟩ => ⟨S8x1x512x1, .f32⟩
  | .hbm, ⟨4, _⟩ => ⟨S_, .f32⟩
  | .hbm, ⟨5, _⟩ => ⟨S8x512x1, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S8x512, .f32⟩
  | .hbm, ⟨10, _⟩ => ⟨S256x512, .f32⟩
  | .hbm, ⟨11, _⟩ => ⟨S512x256, .f32⟩
  | .hbm, ⟨12, _⟩ => ⟨S8x256, .f32⟩
  | .hbm, ⟨13, _⟩ => ⟨S_, .f32⟩
  | .hbm, ⟨14, _⟩ => ⟨S8x256, .f32⟩
  | .hbm, ⟨15, _⟩ => ⟨S8x256, .f32⟩
  | .hbm, ⟨16, _⟩ => ⟨S8x256x1, .f32⟩
  | .hbm, ⟨17, _⟩ => ⟨S8x256x4096, .f32⟩
  | .hbm, ⟨18, _⟩ => ⟨S8x256x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x1x512x1, .f32⟩
  | .local _ .vmem, ⟨3, _⟩ => ⟨S1x1x512x1, .f32⟩
  | .local _ .vmem, ⟨4, _⟩ => ⟨S512x128, .f32⟩
  | .local _ .vmem, ⟨5, _⟩ => ⟨S1x256x1, .f32⟩
  | .local _ .vmem, ⟨6, _⟩ => ⟨S1x256x1, .f32⟩
  | .local _ .vmem, ⟨7, _⟩ => ⟨S1x256x4096, .f32⟩
  | .local _ .vmem, ⟨8, _⟩ => ⟨S1x256x4096, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_7 : BitVec 32 := 0#32
  let v73 : BitVec 1 := Scalar.cmpi .eq arg2 c0_i32_7
  let v74 : BitVec 32 := Scalar.extui v73
  let c0_i32_8 : BitVec 32 := 0#32
  let v75 : BitVec 1 := Scalar.cmpi .ne v74 c0_i32_8
  v75

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, c0_i32.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  shapeCasts_S8x512x64x64_S8x512x4096 : S8x512x64x64.ShapeCasts S8x512x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  slices_S512x4096_o0_0_S512x128 : S512x4096.Slices ![0, 0] S512x128
  slices_S512x4096_o0_128_S512x128 : S512x4096.Slices ![0, 128] S512x128
  slices_S512x4096_o0_256_S512x128 : S512x4096.Slices ![0, 256] S512x128
  slices_S512x4096_o0_384_S512x128 : S512x4096.Slices ![0, 384] S512x128
  slices_S512x4096_o0_512_S512x128 : S512x4096.Slices ![0, 512] S512x128
  slices_S512x4096_o0_640_S512x128 : S512x4096.Slices ![0, 640] S512x128
  slices_S512x4096_o0_768_S512x128 : S512x4096.Slices ![0, 768] S512x128
  slices_S512x4096_o0_896_S512x128 : S512x4096.Slices ![0, 896] S512x128
  slices_S512x4096_o0_1024_S512x128 : S512x4096.Slices ![0, 1024] S512x128
  slices_S512x4096_o0_1152_S512x128 : S512x4096.Slices ![0, 1152] S512x128
  slices_S512x4096_o0_1280_S512x128 : S512x4096.Slices ![0, 1280] S512x128
  slices_S512x4096_o0_1408_S512x128 : S512x4096.Slices ![0, 1408] S512x128
  slices_S512x4096_o0_1536_S512x128 : S512x4096.Slices ![0, 1536] S512x128
  slices_S512x4096_o0_1664_S512x128 : S512x4096.Slices ![0, 1664] S512x128
  slices_S512x4096_o0_1792_S512x128 : S512x4096.Slices ![0, 1792] S512x128
  slices_S512x4096_o0_1920_S512x128 : S512x4096.Slices ![0, 1920] S512x128
  slices_S512x4096_o0_2048_S512x128 : S512x4096.Slices ![0, 2048] S512x128
  slices_S512x4096_o0_2176_S512x128 : S512x4096.Slices ![0, 2176] S512x128
  slices_S512x4096_o0_2304_S512x128 : S512x4096.Slices ![0, 2304] S512x128
  slices_S512x4096_o0_2432_S512x128 : S512x4096.Slices ![0, 2432] S512x128
  slices_S512x4096_o0_2560_S512x128 : S512x4096.Slices ![0, 2560] S512x128
  slices_S512x4096_o0_2688_S512x128 : S512x4096.Slices ![0, 2688] S512x128
  slices_S512x4096_o0_2816_S512x128 : S512x4096.Slices ![0, 2816] S512x128
  slices_S512x4096_o0_2944_S512x128 : S512x4096.Slices ![0, 2944] S512x128
  slices_S512x4096_o0_3072_S512x128 : S512x4096.Slices ![0, 3072] S512x128
  slices_S512x4096_o0_3200_S512x128 : S512x4096.Slices ![0, 3200] S512x128
  slices_S512x4096_o0_3328_S512x128 : S512x4096.Slices ![0, 3328] S512x128
  slices_S512x4096_o0_3456_S512x128 : S512x4096.Slices ![0, 3456] S512x128
  slices_S512x4096_o0_3584_S512x128 : S512x4096.Slices ![0, 3584] S512x128
  slices_S512x4096_o0_3712_S512x128 : S512x4096.Slices ![0, 3712] S512x128
  slices_S512x4096_o0_3840_S512x128 : S512x4096.Slices ![0, 3840] S512x128
  slices_S512x4096_o0_3968_S512x128 : S512x4096.Slices ![0, 3968] S512x128
  reduces_S512x128_S512 : S512x128.Reduces [1] S512
  shapeCasts_S512_S512x1 : S512.ShapeCasts S512x1
  shapeCasts_S512x1_S1x1x512x1 : S512x1.ShapeCasts S1x1x512x1
  inb_S1x1x512x1_S1x1x512x1_0_0_0_0 : ∀ a, (![0, 0, 0, 0] : Fin 4 → Nat) a + S1x1x512x1.size a ≤ S1x1x512x1.size a
  h_S1x1x512x1 : 0 < S1x1x512x1.numel
  reducesTo_S8x1x512x1_S8x512x1_d1 : S8x1x512x1.ReducesTo [1] S8x512x1
  h_S_ : 0 < S_.numel
  shapeCasts_S8x512x1_S8x512 : S8x512x1.ShapeCasts S8x512
  bcast_S_S8x512 : S_.BroadcastsInDim S8x512 (![] : Fin 0 → Fin S8x512.rank)
  shapeCasts_S256x512x1x1_S256x512 : S256x512x1x1.ShapeCasts S256x512
  transposes_S256x512_S512x256_1_0 : S256x512.Transposes [1, 0] S512x256
  bcast_S_S8x256 : S_.BroadcastsInDim S8x256 (![] : Fin 0 → Fin S8x256.rank)
  shapeCasts_S8x256_S8x256x1 : S8x256.ShapeCasts S8x256x1
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x4096 : S1x256x1.Broadcasts S1x256x4096
  inb_S1x256x4096_S1x256x4096_0_0_0 : ∀ a, (![0, 0, 0] : Fin 3 → Nat) a + S1x256x4096.size a ≤ S1x256x4096.size a
  h_S1x256x4096 : 0 < S1x256x4096.numel
  shapeCasts_S8x256x4096_S8x256x64x64 : S8x256x4096.ShapeCasts S8x256x64x64
  dot_S8x512_S512x256_S8x256_1_0_0_1_n_n_wf : DotDims.WF S8x512 S512x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x4096.size a
  hwx0_0 : ∀ i : grid0.Coords, EltTy.bits .f32 = 32 ∨ (Rect.block (s := S8x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x1.size a ≤ S8x1x512x1.size a
  hwx0_1 : ∀ i : grid0.Coords, EltTy.bits .f32 = 32 ∨ (Rect.block (s := S8x1x512x1) S1x1x512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1.size a ≤ S8x256x1.size a
  hwx1_0 : ∀ i : grid1.Coords, EltTy.bits .f32 = 32 ∨ (Rect.block (s := S8x256x1) S1x256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S8x256x4096.size a
  hwx1_1 : ∀ i : grid1.Coords, EltTy.bits .f32 = 32 ∨ (Rect.block (s := S8x256x4096) S1x256x4096.size (cc1_transform_1 i) (hinb1_1 i)).WholeWords (EltTy.packing .f32)

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v11) S1x256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== Proof.Spec.lean ====
/-
  The pooled 1×1 convolution, as one function of the two argument arrays.

  For an image batch x of shape [8, 512, 64, 64] and a weight w of shape [256, 512, 1, 1], over the extended reals:
    pool x n ci   = Σ_h Σ_w x(n, ci, h, w)                         (the 64×64 positions of one channel of one image)
    conv x w n co = max (Σ_ci w(co, ci, 0, 0) · (pool x n ci · 2⁻¹²)) 0
    G x w (n, co, h, w') = conv x w n co                           (one value per image and output channel, at every position)
  The scale 2⁻¹² = 1/4096 and the zero are kept as the float words both programs print.

  Two regroupings of a finite sum in an additive commutative monoid join the two programs' arrangements of the
  pooling sum: thirty-two terms added pairwise in five rounds are their sum in order, and a sum over 128 lanes of
  32 slices taken at slice·128 + lane is the sum over 64 rows of 64 columns taken at row·64 + column (both are the sum
  over the 4096 flat positions). Neither needs the terms to be finite.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Pool

open Idealize.ShloMosaic Idealize.ShloMosaic.ValueIdx

/-- The batch of images, the weight, and the result. -/
abbrev SX : Shape := ⟨4, ![8, 512, 64, 64]⟩
abbrev SW : Shape := ⟨4, ![256, 512, 1, 1]⟩
abbrev SO : Shape := ⟨4, ![8, 256, 64, 64]⟩

/-- The mean's scale, 2⁻¹², as its float word. -/
abbrev scale : EReal := Ideal.ofBits .f32 0x39800000#32
/-- The rectifier's floor, as its float word. -/
abbrev floor0 : EReal := Ideal.ofBits .f32 0x00000000#32

/-- The sum of channel `ci` of image `n` over its 64×64 positions. -/
def pool (x : SX.Idx → EReal) (n : Fin 8) (ci : Fin 512) : EReal :=
  ∑ h : Fin 64, ∑ w : Fin 64, x (ix4 n ci h w)

/-- Output channel `co` of image `n`: the weight's row against the channel means, rectified. -/
def conv (x : SX.Idx → EReal) (wt : SW.Idx → EReal) (n : Fin 8) (co : Fin 256) : EReal :=
  max (∑ ci : Fin 512, wt (ix4 co ci (0 : Fin 1) (0 : Fin 1)) * (pool x n ci * scale)) floor0

/-- The result array: `conv` of the image and the output channel, at every position. -/
def G (x : SX.Idx → EReal) (wt : SW.Idx → EReal) : SO.Idx → EReal :=
  fun i => conv x wt (i 0) (i 1)

theorem G_apply (x : SX.Idx → EReal) (wt : SW.Idx → EReal) (n : Fin 8) (co : Fin 256) (h w : Fin 64) :
    G x wt (ix4 n co h w) = conv x wt n co := rfl

section Laws

variable {M : Type*} [AddCommMonoid M]

/-- A sum over the flat positions q = a·n + b, a < m, b < n, as the double sum over a and b. -/
theorem sum_flat (m n : ℕ) (f : ℕ → M) :
    ∑ q : Fin (m * n), f q.val = ∑ a : Fin m, ∑ b : Fin n, f (a.val * n + b.val) := by
  rw [← Equiv.sum_comp finProdFinEquiv, Fintype.sum_prod_type]
  refine Finset.sum_congr rfl fun a _ => Finset.sum_congr rfl fun b _ => ?_
  congr 1
  show b.val + n * a.val = a.val * n + b.val
  rw [Nat.mul_comm, Nat.add_comm]

/-- 128 lanes of 32 slices at slice·128 + lane, and 64 rows of 64 columns at row·64 + column: the same 4096 positions. -/
theorem sum_lanes_eq_rows (f : ℕ → M) :
    ∑ j : Fin 128, ∑ s : Fin 32, f (s.val * 128 + j.val) = ∑ h : Fin 64, ∑ w : Fin 64, f (h.val * 64 + w.val) := by
  rw [Finset.sum_comm, ← sum_flat 32 128 f, ← sum_flat 64 64 f]

/-- Thirty-two terms added pairwise, in five rounds, are their sum in order. -/
theorem tree32 (g : ℕ → M) :
    ((((g 0 + g 1) + (g 2 + g 3)) + ((g 4 + g 5) + (g 6 + g 7))) + (((g 8 + g 9) + (g 10 + g 11)) + ((g 12 + g 13) + (g 14 + g 15))))
      + ((((g 16 + g 17) + (g 18 + g 19)) + ((g 20 + g 21) + (g 22 + g 23))) + (((g 24 + g 25) + (g 26 + g 27)) + ((g 28 + g 29) + (g 30 + g 31))))
      = ∑ s : Fin 32, g s.val := by
  rw [Fin.sum_univ_eq_sum_range g 32]
  simp only [Finset.sum_range_succ, Finset.sum_range_zero, zero_add]
  simp only [add_assoc]

end Laws

end Cert.Pool

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibLayoutRead.lean ====
/-
  Layout operations read at an index written by its coordinates: the shape casts that add a trailing unit axis
  (a row sum kept as a column), the casts between [a, b, c] and [a·b, c] (rows of a slab laid end to end), the
  broadcasts along unit axes, and the source index of a reduction over the last axis. Each is the general
  read-at-an-index lemma of the library with its per-axis side condition discharged once.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LayoutRead

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, c] array cast to [m, c] (m = a·b: the rows laid end to end) reads, at (q, k) with q = i·b + j, the
    operand at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (q : Fin m)
    (hq : q.val = i.val * b + j.val) :
    shapeCast ⟨2, ![m, c]⟩ x h (ix2 q k) = x (ix3 i j k) :=
  shapeCast_apply x h _ _ (by
    rw [Shape.rowMajor_val_three, Shape.rowMajor_val_two]
    show (i.val * b + j.val) * c + k.val = q.val * c + k.val
    rw [hq])

/-- An [m, c] array cast to [a, b, c] reads, at (i, j, k), the operand at (q, k) with q = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (q : Fin m)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A broadcast of an [a, b, 1] array along its unit axis reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo_apply v h _ _ (by
    intro d
    match d with
    | ⟨0, _⟩ =>
      show i.val = if a = 1 then 0 else i.val
      split
      · omega
      · rfl
    | ⟨1, _⟩ =>
      show j.val = if b = 1 then 0 else j.val
      split
      · omega
      · rfl
    | ⟨2, _⟩ => rfl)

/-- A broadcast of a [1, 1, c] array over the two leading axes reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) :=
  broadcastTo_apply v h _ _ (by
    intro d
    match d with
    | ⟨0, _⟩ => rfl
    | ⟨1, _⟩ => rfl
    | ⟨2, _⟩ =>
      show k.val = if c = 1 then 0 else k.val
      split
      · omega
      · rfl)

/-- A broadcast of an [a, 1] column over b columns reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply v h _ _ (by
    intro d
    match d with
    | ⟨0, _⟩ =>
      show i.val = if a = 1 then 0 else i.val
      split
      · omega
      · rfl
    | ⟨1, _⟩ => rfl)

/-- The source index of a reduction of an [a, b] array over its last axis, over result index i with the summed
    coordinate k: (i, k). -/
theorem lift_ab_last {a b : ℕ} (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- A sum over the last axis of an [a, b] array at the ideal values, read at i: the sum over k of the entries (i, k). -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

end Idealize.ShloMosaic.LayoutRead

end
-- ==== Proof.LibMidAxis.lean ====
/-
  Two layout reads of rank-3 arrays, at the ideal values or at any values.

  * A sum over the MIDDLE axis of an [a, b, c] array, read at (i, k): the sum over j of the entries (i, j, k) — the source
    index of the reduction over result index (i, k) with the summed coordinate j is (i, j, k).
  * A broadcast of an [a, 1, 1] array over its two unit axes reads, at (i, j, k), the operand at (i, 0, 0).
-/
import Idealize.ShloMosaic.Lib.Pipeline.Value
import Idealize.ShloMosaic.Lib.ValueIdx
import Idealize.ShloMosaic.PureOps.Ideal.Laws

noncomputable section

open scoped BigOperators

namespace Idealize.ShloMosaic.MidAxis

open Idealize.ShloMosaic Idealize.ShloMosaic.ValueIdx

/-- The source index of a reduction of an [a, b, c] array over its middle axis, over result index (i, k) with the
    summed coordinate j: (i, j, k). -/
theorem lift_abc_mid {a b c : ℕ} (h : (⟨3, ![a, b, c]⟩ : Shape).Reduces [(1 : Fin 3)] ⟨2, ![a, c]⟩) (i : Fin a) (k : Fin c)
    (j : Fin b) : h.lift (ix2 i k) j = ix3 i j k := by
  funext d
  apply Fin.ext
  show h.liftVal (ix2 i k) j.val d = (ix3 i j k d).val
  unfold Shape.Reduces.liftVal
  match d with
  | ⟨0, _⟩ => rfl
  | ⟨1, _⟩ => rfl
  | ⟨2, _⟩ => rfl

/-- A sum over the middle axis of an [a, b, c] array at the ideal values, read at (i, k): the sum over j of the
    entries (i, j, k). -/
theorem midSum_apply {a b c : ℕ} {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (k : Fin c) :
    multiReduction .add [(1 : Fin 3)] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A broadcast of an [a, 1, 1] array over its two unit axes reads, at (i, j, k), the operand at (i, 0, 0). -/
theorem broadcastTo_a11_abc_apply {α : Type} {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) :=
  broadcastTo_apply v h _ _ (by
    intro d
    match d with
    | ⟨0, _⟩ =>
      show i.val = if a = 1 then 0 else i.val
      split
      · omega
      · rfl
    | ⟨1, _⟩ => rfl
    | ⟨2, _⟩ => rfl)

end Idealize.ShloMosaic.MidAxis

end
-- ==== Proof.KernelPayload.lean ====
/-
  The kernel body's one stored value, read at an index.

  The body takes the image block x (one image: [1, 32768, 64], row ci·64 + h, column w) and the weight block
  wt ([256, 512]) and stores, at row co·64 + h and column w of its [1, 16384, 64] block,
      max (Σ_ci wt(co, ci) · ((Σ_w' Σ_h' x(0, ci·64 + h', w')) · 2⁻¹²)) 0,
  the same value at all 64×64 positions (h, w) of output channel co. It is read in three stages: the scaled channel
  sums (a [512, 1] column), the rectified product of the weight with that column (a [256, 1] column), and the
  broadcast of that column over the positions, laid out as the stored block.
-/
import proofs.«177195_g2000004648224564_pallasbulk_117_6_alg».proof.Proof.Gen.KernelIdeal.Skeleton
import proofs.«177195_g2000004648224564_pallasbulk_117_6_alg».proof.Proof.Spec
import proofs.«177195_g2000004648224564_pallasbulk_117_6_alg».proof.Proof.LibPlainDot
import proofs.«177195_g2000004648224564_pallasbulk_117_6_alg».proof.Proof.LibLayoutRead
import proofs.«177195_g2000004648224564_pallasbulk_117_6_alg».proof.Proof.LibMidAxis
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.ShloMosaic.LayoutRead Idealize.ShloMosaic.MidAxis

/-! ## The rows of the image block -/

/-- Row ci·64 + h of the image block: position row h of channel ci. -/
def row (ci : Fin 512) (h : Fin 64) : Fin 32768 := ⟨ci.val * 64 + h.val, by omega⟩

theorem row_val (ci : Fin 512) (h : Fin 64) : (row ci h).val = ci.val * 64 + h.val := rfl

/-! ## Stage one: the scaled channel sums -/

/-- The channel sums times 2⁻¹², as the body computes them: a [512, 1] column. -/
def means (x0 : Vec Ideal S1x32768x64 .f32) : FVec Ideal S512x1 .f32 :=
  mulf
    (shapeCast S512x1
      (multiReduction (F := Ideal) .add [1] S512
        (multiReduction (F := Ideal) .add [1] S512x64
          (shapeCast S512x64x64 (shapeCast S32768x64 x0 shapeCasts_S1x32768x64_S32768x64) shapeCasts_S32768x64_S512x64x64)
          0x00000000#32 reduces_S512x64x64_S512x64 (.inl rfl) rfl)
        0x00000000#32 reduces_S512x64_S512 (.inl rfl) rfl)
      shapeCasts_S512_S512x1)
    (broadcast S512x1 (Scalar.ofBits (F := Ideal) .f32 0x39800000#32))

/-- The image block viewed [512, 64, 64], at (ci, h, w): row ci·64 + h, column w. -/
theorem slab_apply (x0 : Vec Ideal S1x32768x64 .f32) (ci : Fin 512) (h w : Fin 64) :
    shapeCast S512x64x64 (shapeCast S32768x64 x0 shapeCasts_S1x32768x64_S32768x64) shapeCasts_S32768x64_S512x64x64 (ix3 ci h w)
      = x0 (ix3 (0 : Fin 1) (row ci h) w) :=
  (shapeCast_mc_abc_apply _ shapeCasts_S32768x64_S512x64x64 ci h w (row ci h) (row_val ci h)).trans
    (shapeCast_1ab_ab_apply x0 shapeCasts_S1x32768x64_S32768x64 (row ci h) w)

/-- The scaled sum of channel ci: the rows summed first, then the columns. -/
theorem means_apply (x0 : Vec Ideal S1x32768x64 .f32) (ci : Fin 512) (u : Fin 1) :
    means x0 (ix2 ci u) = (∑ w : Fin 64, ∑ h : Fin 64, x0 (ix3 (0 : Fin 1) (row ci h) w)) * Cert.Pool.scale := by
  unfold means
  refine (mulf_apply _ _ _).trans ?_
  refine congrArg (· * Cert.Pool.scale) ?_
  refine (shapeCast_a_a1_apply _ shapeCasts_S512_S512x1 ci u).trans ?_
  refine (rowSum_apply _ _ reduces_S512x64_S512 (.inl rfl) rfl ci).trans ?_
  refine Finset.sum_congr rfl fun w _ => ?_
  refine (midSum_apply _ _ reduces_S512x64x64_S512x64 (.inl rfl) rfl ci w).trans ?_
  exact Finset.sum_congr rfl fun h _ => slab_apply x0 ci h w

/-! ## Stage two: the rectified product with the weight block -/

/-- The weight block against the scaled channel sums, rectified: a [256, 1] column. -/
def column (x0 : Vec Ideal S1x32768x64 .f32) (x1 : Vec Ideal S256x512 .f32) : FVec Ideal S256x1 .f32 :=
  maximumf
    (matmul (F := Ideal) dot_S256x512_S512x1_S256x1_1_0_0_1_n_n none
      (shapeCast S256x512 x1 shapeCasts_S256x512_S256x512 : FVec Ideal S256x512 .f32) (means x0) (constant (F := Ideal) S256x1 .f32 0x00000000#32))
    (broadcast S256x1 (Scalar.ofBits (F := Ideal) .f32 0x00000000#32))

/-- The body's contraction is the plain 256×512 by 512×1 product. -/
theorem dot_plain : dot_S256x512_S512x1_S256x1_1_0_0_1_n_n = DotDims.plain 256 512 1 := rfl

/-- Output channel co: the weight's row against the scaled channel sums, rectified. -/
theorem column_apply (x0 : Vec Ideal S1x32768x64 .f32) (x1 : Vec Ideal S256x512 .f32) (co : Fin 256) (u : Fin 1) :
    column x0 x1 (ix2 co u)
      = max (∑ ci : Fin 512, x1 (ix2 co ci) * ((∑ w : Fin 64, ∑ h : Fin 64, x0 (ix3 (0 : Fin 1) (row ci h) w)) * Cert.Pool.scale))
          Cert.Pool.floor0 := by
  unfold column
  refine (maximumf_apply _ _ _).trans ?_
  refine congrArg (fun z => max z Cert.Pool.floor0) ?_
  rw [dot_plain, shapeCast_self]
  refine (Idealize.ShloMosaic.PlainDot.matmul_zero_apply none x1 (means x0) co u).trans ?_
  exact Finset.sum_congr rfl fun ci _ => congrArg (x1 (ix2 co ci) * ·) (means_apply x0 ci u)

/-! ## Stage three: the column over the positions, as the stored block -/

/-- The stored value is the rectified column broadcast over the 64×64 positions and laid out [1, 16384, 64]. -/
theorem pay_eq (x0 : Vec Ideal S1x32768x64 .f32) (x1 : Vec Ideal S256x512 .f32) :
    k0_pay1 x0 x1
      = shapeCast S1x16384x64
          (shapeCast S16384x64
            (broadcastTo S256x64x64
              (shapeCast S256x1x1 (shapeCast S256x1x1 (column x0 x1) shapeCasts_S256x1_S256x1x1) shapeCasts_S256x1x1_S256x1x1)
              broadcasts_S256x1x1_S256x64x64)
            shapeCasts_S256x64x64_S16384x64)
          shapeCasts_S16384x64_S1x16384x64 := rfl

/-- THE STORED VALUE at row co·64 + h, column w: output channel co of the image, whatever the position. -/
theorem pay_apply (x0 : Vec Ideal S1x32768x64 .f32) (x1 : Vec Ideal S256x512 .f32) (co : Fin 256) (h w : Fin 64)
    (q : Fin 16384) (hq : q.val = co.val * 64 + h.val) (u : Fin 1) :
    k0_pay1 x0 x1 (ix3 u q w)
      = max (∑ ci : Fin 512, x1 (ix2 co ci) * ((∑ w' : Fin 64, ∑ h' : Fin 64, x0 (ix3 (0 : Fin 1) (row ci h') w')) * Cert.Pool.scale))
          Cert.Pool.floor0 := by
  refine (congrFun (pay_eq x0 x1) _).trans ?_
  refine (shapeCast_ab_1ab_apply _ shapeCasts_S16384x64_S1x16384x64 u q w).trans ?_
  refine (shapeCast_abc_mc_apply _ shapeCasts_S256x64x64_S16384x64 co h w q hq).trans ?_
  refine (broadcastTo_a11_abc_apply _ broadcasts_S256x1x1_S256x64x64 co h w).trans ?_
  refine (congrFun (shapeCast_self _ shapeCasts_S256x1x1_S256x1x1) _).trans ?_
  refine (shapeCast_ab_ab1_apply _ shapeCasts_S256x1_S256x1x1 co (0 : Fin 1) (0 : Fin 1)).trans ?_
  exact column_apply x0 x1 co 0

end Cert.KernelIdeal.Hand

end
-- ==== Proof.KernelArrays.lean ====
/-
  The arrays the pallas_call finds, read at an index.

  Before the call the program reshapes the image batch [8, 512, 64, 64] to [8, 32768, 64] (row ci·64 + h of image n is
  position row h of channel ci) and the weight [256, 512, 1, 1] to [256, 512]. Both are the same entries in the same
  row-major order; here each is read at an index written by its coordinates.
-/
import proofs.«177195_g2000004648224564_pallasbulk_117_6_alg».proof.Proof.Gen.KernelIdeal.Frame
import proofs.«177195_g2000004648224564_pallasbulk_117_6_alg».proof.Proof.Spec
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.ShloMosaic.ValueIdx
open Idealize.ShloMosaic.Tactic Idealize.SL.Sem

variable (m : (ℓ : Loc nD τ sig) → Buf (Elt Ideal) ℓ)

/-- The image batch as the call finds it: the argument, reshaped. -/
theorem V_images (c : Dev nD) :
    (V m c main_v0 : S8x32768x64.Idx → EReal)
      = shapeCast S8x32768x64 (m ((c.tc : Thread nD τ).loc main_arg0)) shapeCasts_S8x512x64x64_S8x32768x64 := by
  show StableHlo.after hostOps0 (fun b => m (c, b)) (Proc.devRef .tc main_v0) = _
  after_results
  rfl

/-- The weight as the call finds it: the argument, reshaped. -/
theorem V_weight (c : Dev nD) :
    (V m c main_v1 : S256x512.Idx → EReal)
      = shapeCast S256x512 (m ((c.tc : Thread nD τ).loc main_arg1)) shapeCasts_S256x512x1x1_S256x512 := by
  show StableHlo.after hostOps0 (fun b => m (c, b)) (Proc.devRef .tc main_v1) = _
  after_results
  rfl

/-- Row ci·64 + h, column w of image n, as the call finds it, is the argument at (n, ci, h, w). -/
theorem V_images_apply (c : Dev nD) (n : Fin 8) (ci : Fin 512) (h w : Fin 64) (r : Fin 32768) (hr : r.val = ci.val * 64 + h.val) :
    (V m c main_v0 : S8x32768x64.Idx → EReal) (ix3 n r w)
      = (m ((c.tc : Thread nD τ).loc main_arg0) : Cert.Pool.SX.Idx → EReal) (ix4 n ci h w) := by
  rw [V_images]
  refine shapeCast_apply _ _ _ _ ?_
  show (Cert.Pool.SX.rowMajor (ix4 n ci h w)).val = (S8x32768x64.rowMajor (ix3 n r w)).val
  rw [Shape.rowMajor_val_four, Shape.rowMajor_val_three]
  show ((n.val * 512 + ci.val) * 64 + h.val) * 64 + w.val = (n.val * 32768 + r.val) * 64 + w.val
  omega

/-- Entry (co, ci) of the weight, as the call finds it, is the argument at (co, ci, 0, 0). -/
theorem V_weight_apply (c : Dev nD) (co : Fin 256) (ci : Fin 512) :
    (V m c main_v1 : S256x512.Idx → EReal) (ix2 co ci)
      = (m ((c.tc : Thread nD τ).loc main_arg1) : Cert.Pool.SW.Idx → EReal) (ix4 co ci (0 : Fin 1) (0 : Fin 1)) := by
  rw [V_weight]
  refine shapeCast_apply _ _ _ _ ?_
  show (Cert.Pool.SW.rowMajor (ix4 co ci (0 : Fin 1) (0 : Fin 1))).val = (S256x512.rowMajor (ix2 co ci)).val
  rw [Shape.rowMajor_val_four, Shape.rowMajor_val_two]
  show ((co.val * 512 + ci.val) * 1 + 0) * 1 + 0 = co.val * 512 + ci.val
  omega

end Cert.KernelIdeal.Hand

end
-- ==== Proof.KernelBlocks.lean ====
/-
  From the blocks to the array.

  The call runs its body once per image: point t of the grid reads image t's block (rows ci·64 + h of the batch viewed
  [8, 32768, 64]) and the whole weight, and writes block t of the result [8, 16384, 64]. Here the result after the
  run is read as ONE function of the two arguments: at (n, q, w), output channel q / 64 of image n (the pooled
  convolution of the specification). Each point writes its block of that function (the body's stored value over the
  blocks the point reads), and the eight blocks cover the result.
-/
import proofs.«177195_g2000004648224564_pallasbulk_117_6_alg».proof.Proof.KernelPayload
import proofs.«177195_g2000004648224564_pallasbulk_117_6_alg».proof.Proof.KernelArrays
import proofs.«177195_g2000004648224564_pallasbulk_117_6_alg».proof.Proof.Gen.KernelIdeal.Frame
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The result of the call, [8, 16384, 64]: at (n, q, w), output channel q / 64 of image n. -/
def Gk (x : Cert.Pool.SX.Idx → EReal) (wt : Cert.Pool.SW.Idx → EReal) : S8x16384x64.Idx → EReal :=
  fun i => Cert.Pool.conv x wt ⟨(i 0).val, (i 0).isLt⟩
    ⟨(i 1).val / 64, by have h : (i 1).val < 16384 := (i 1).isLt; omega⟩

theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The result of the call at an index written by its coordinates. -/
theorem Gk_apply (x : Cert.Pool.SX.Idx → EReal) (wt : Cert.Pool.SW.Idx → EReal) (n : Fin 8) (q : Fin 16384) (w : Fin 64)
    (co : Fin 256) (hco : q.val / 64 = co.val) : Gk x wt (ix3 n q w) = Cert.Pool.conv x wt n co := by
  show Cert.Pool.conv x wt n ⟨q.val / 64, _⟩ = _
  exact congrArg (Cert.Pool.conv x wt n) (Fin.ext hco)

/-- THE BODY ON ONE IMAGE: when the image block holds image n (row ci·64 + h, column w at (n, ci, h, w)) and the weight
    block the weight, the stored value at row q, column w is the result at (n, q, w). The body sums each channel's
    rows first and its columns second; the specification the other way round: the two double sums are equal. -/
theorem block_value (x0 : Vec Ideal S1x32768x64 .f32) (x1 : Vec Ideal S256x512 .f32)
    (X : Cert.Pool.SX.Idx → EReal) (Wt : Cert.Pool.SW.Idx → EReal) (n : Fin 8)
    (hx0 : ∀ (ci : Fin 512) (h w : Fin 64), x0 (ix3 (0 : Fin 1) (row ci h) w) = X (ix4 n ci h w))
    (hx1 : ∀ (co : Fin 256) (ci : Fin 512), x1 (ix2 co ci) = Wt (ix4 co ci (0 : Fin 1) (0 : Fin 1)))
    (u : Fin 1) (q : Fin 16384) (w : Fin 64) :
    k0_pay1 x0 x1 (ix3 u q w) = Gk X Wt (ix3 n q w) := by
  have hq : q.val < 16384 := q.isLt
  rw [pay_apply x0 x1 ⟨q.val / 64, by omega⟩ ⟨q.val % 64, Nat.mod_lt _ (by decide)⟩ w q
      (by show q.val = q.val / 64 * 64 + q.val % 64; omega) u,
    Gk_apply X Wt n q w ⟨q.val / 64, by omega⟩ rfl]
  unfold Cert.Pool.conv Cert.Pool.pool
  refine congrArg (fun z => max z Cert.Pool.floor0) ?_
  refine Finset.sum_congr rfl fun ci _ => ?_
  rw [hx1]
  refine congrArg (fun z => Wt (ix4 _ ci (0 : Fin 1) (0 : Fin 1)) * (z * Cert.Pool.scale)) ?_
  rw [Finset.sum_comm]
  exact Finset.sum_congr rfl fun h _ => Finset.sum_congr rfl fun w' _ => hx0 ci h w'

/-- The image block at point t is image t of the batch as the call finds it. -/
theorem iblk0_apply (c : Dev nD) (t : Fin cfg0.N) (n : Fin 8) (hn : n.val = t.val) (u : Fin 1) (r : Fin 32768) (w : Fin 64) :
    (iblk m c 0 t : Vec Ideal S1x32768x64 .f32) (ix3 u r w) = (V m c main_v0 : S8x32768x64.Idx → EReal) (ix3 n r w) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * u.val = n.val; omega
  | ⟨1, _⟩ => show win0_0.index t (1 : Fin 3) * 32768 + 1 * r.val = r.val; omega
  | ⟨2, _⟩ => show win0_0.index t (2 : Fin 3) * 64 + 1 * w.val = w.val; omega

/-- The weight block at every point is the weight as the call finds it. -/
theorem iblk1_apply (c : Dev nD) (t : Fin cfg0.N) (co : Fin 256) (ci : Fin 512) :
    (iblk m c 1 t : Vec Ideal S256x512 .f32) (ix2 co ci) = (V m c main_v1 : S256x512.Idx → EReal) (ix2 co ci) := by
  obtain ⟨-, -, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 256 + 1 * co.val = co.val; omega
  | ⟨1, _⟩ => show win0_1.index t (1 : Fin 2) * 512 + 1 * ci.val = ci.val; omega

/-- WHAT POINT t WRITES BACK is block t of the result: image t's rows. -/
theorem flushed_eq (c : Dev nD) (t : Fin cfg0.N) :
    (dats m 0 c).flushed 2 t = ((cfg0.win 2).blk t).view.read (Elt Ideal)
      (Gk (m ((c.tc : Thread nD τ).loc main_arg0)) (m ((c.tc : Thread nD τ).loc main_arg1))) := by
  show (cfg0.win 2).cut (grid0.coords t) ((dats m 0 c).after 2 t) = _
  rw [after0_2]
  unfold out0_2
  rw [View.canon_unit_zero hz3]
  simp only [View.ld_unit_zero (S := S1x32768x64) hz3, View.ld_unit_zero (S := S256x512) hz2]
  funext j
  show k0_pay1 (iblk m c 0 t) (iblk m c 1 t) j = Gk _ _ (((cfg0.win 2).blk t).view.emb j)
  obtain ⟨u, q, w, rfl⟩ : ∃ (u : Fin 1) (q : Fin 16384) (w : Fin 64), j = ix3 u q w := ⟨j 0, j 1, j 2, eq_ix3 j⟩
  have hN : cfg0.N = 8 := N_0
  have ht : t.val < 8 := by have := t.isLt; omega
  obtain ⟨-, -, -, -, -, e0, e1, e2⟩ := idx_facts t
  have he : ((cfg0.win 2).blk t).view.emb (ix3 u q w) = ix3 (⟨t.val, ht⟩ : Fin 8) q w := by
    funext a
    apply Fin.ext
    match a with
    | ⟨0, _⟩ => show win0_2.index t (0 : Fin 3) * 1 + 1 * u.val = t.val; omega
    | ⟨1, _⟩ => show win0_2.index t (1 : Fin 3) * 16384 + 1 * q.val = q.val; omega
    | ⟨2, _⟩ => show win0_2.index t (2 : Fin 3) * 64 + 1 * w.val = w.val; omega
  rw [he]
  refine block_value (iblk m c 0 t) (iblk m c 1 t) (m ((c.tc : Thread nD τ).loc main_arg0)) (m ((c.tc : Thread nD τ).loc main_arg1))
    (⟨t.val, ht⟩ : Fin 8) ?_ ?_ u q w
  · intro ci h w'
    exact (iblk0_apply m c t ⟨t.val, ht⟩ rfl (0 : Fin 1) (row ci h) w').trans
      (V_images_apply m c ⟨t.val, ht⟩ ci h w' (row ci h) (row_val ci h))
  · intro co ci
    exact (iblk1_apply m c t co ci).trans (V_weight_apply m c co ci)

/-- An index of the result is in point t's block iff each coordinate is in the block's range on its axis. -/
theorem mem_blk (t : Fin cfg0.N) (i : S8x16384x64.Idx) :
    i ∈ ((cfg0.win 2).blk t).view.set ↔ ∀ a : Fin 3, win0_2.index t a * S1x16384x64.size a ≤ (i a).val
      ∧ (i a).val < win0_2.index t a * S1x16384x64.size a + S1x16384x64.size a := by
  show i ∈ ((View.whole main_v2).slice (win0_2.rect t)).set ↔ _
  rw [View.set_slice_whole, Rect.mem_set_unit]
  exact Iff.rfl

/-- Every index of the result is in some point's block: image n's rows are point n's. -/
theorem cover (i : S8x16384x64.Idx) : ∃ t : Fin cfg0.N, (cfg0.win 2).flush t = true ∧ i ∈ ((cfg0.win 2).blk t).view.set := by
  have hN : cfg0.N = 8 := N_0
  have h0 : (i 0).val < 8 := (i 0).isLt
  have h1 : (i 1).val < 16384 := (i 1).isLt
  have h2 : (i 2).val < 64 := (i 2).isLt
  refine ⟨⟨(i 0).val, by omega⟩, flush0_2 _, ?_⟩
  rw [mem_blk]
  obtain ⟨-, -, -, -, -, e0, e1, e2⟩ := idx_facts ⟨(i 0).val, by omega⟩
  intro a
  match a with
  | ⟨0, _⟩ =>
    show win0_2.index ⟨(i 0).val, _⟩ (0 : Fin 3) * 1 ≤ (i 0).val ∧ (i 0).val < win0_2.index ⟨(i 0).val, _⟩ (0 : Fin 3) * 1 + 1
    rw [e0]
    show (i 0).val * 1 ≤ (i 0).val ∧ (i 0).val < (i 0).val * 1 + 1
    omega
  | ⟨1, _⟩ =>
    show win0_2.index ⟨(i 0).val, _⟩ (1 : Fin 3) * 16384 ≤ (i 1).val ∧ (i 1).val < win0_2.index ⟨(i 0).val, _⟩ (1 : Fin 3) * 16384 + 16384
    rw [e1]; omega
  | ⟨2, _⟩ =>
    show win0_2.index ⟨(i 0).val, _⟩ (2 : Fin 3) * 64 ≤ (i 2).val ∧ (i 2).val < win0_2.index ⟨(i 0).val, _⟩ (2 : Fin 3) * 64 + 64
    rw [e2]; omega

/-- THE RESULT OF THE CALL after the run: at (n, q, w), output channel q / 64 of image n. -/
theorem final (c : Dev nD) :
    (dats m 0 c).arrAt 2 cfg0.N = Gk (m ((c.tc : Thread nD τ).loc main_arg0)) (m ((c.tc : Thread nD τ).loc main_arg1)) :=
  (dats m 0 c).arrAt_eq_of_cover 2 _ (fun t _ => flushed_eq m c t) cover

end Cert.KernelIdeal.Hand

end
-- ==== Proof.KernelRun.lean ====
/-
  The kernel's run, read.

  After the call the program reshapes its result [8, 16384, 64] to [8, 256, 64, 64]: the same entries in the same
  row-major order, so row co·64 + h of image n becomes position row h of output channel co, and the result buffer ends
  at the specification's array of the two arguments: at (n, co, h, w), the rectified product of the weight's row co
  with the scaled channel sums of image n. The arguments are read, never written.
-/
import proofs.«177195_g2000004648224564_pallasbulk_117_6_alg».proof.Proof.KernelBlocks
import proofs.«177195_g2000004648224564_pallasbulk_117_6_alg».proof.Proof.Gen.KernelIdeal.Frame
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.ShloMosaic.ValueIdx
open Idealize.ShloMosaic.Tactic Idealize.SL.Sem
open Idealize.ShloMosaic.Pipeline (Dat)

variable (m : (ℓ : Loc nD τ sig) → Buf (Elt Ideal) ℓ) (ρ : Dev nD → PrngReg)

/-- The result buffer after the last reshape: the call's result [8, 16384, 64] viewed [8, 256, 64, 64], which is the
    specification's array: row co·64 + h of image n is position row h of output channel co. -/
theorem tail_eq (c : Dev nD) :
    Pipeline.afterTail₀ cfgs (dats m) 0 (V0 m) [hostOps1] c main_v3
      = Cert.Pool.G (m ((c.tc : Thread nD τ).loc main_arg0)) (m ((c.tc : Thread nD τ).loc main_arg1)) := by
  unfold Pipeline.afterTail₀
  show StableHlo.after hostOps1 _ (Proc.devRef .tc main_v3) = _
  after_results
  have hW : Pipeline.withArrays spec0 c (V0 m c) (fun w => (dats m 0 c).arrAt w cfg0.N) (Proc.devRef .tc main_v2)
      = Gk (m ((c.tc : Thread nD τ).loc main_arg0)) (m ((c.tc : Thread nD τ).loc main_arg1)) :=
    (Pipeline.withArrays_arr spec0 launch0.win.arr_inj c _ _ 2).trans (final m c)
  funext i
  show shapeCast S8x256x64x64
      (Pipeline.withArrays spec0 c (V0 m c) (fun w => (dats m 0 c).arrAt w cfg0.N) (Proc.devRef .tc main_v2))
      shapeCasts_S8x16384x64_S8x256x64x64 i = _
  rw [hW]
  obtain ⟨n, co, h, w, rfl⟩ : ∃ (n : Fin 8) (co : Fin 256) (h w : Fin 64), i = ix4 n co h w :=
    ⟨i 0, i 1, i 2, i 3, eq_ix4 i⟩
  rw [Cert.Pool.G_apply]
  have hq : co.val * 64 + h.val < 16384 := by omega
  refine (shapeCast_apply _ _ _ (ix3 n (⟨co.val * 64 + h.val, hq⟩ : Fin 16384) w) ?_).trans ?_
  · rw [Shape.rowMajor_val_three, Shape.rowMajor_val_four]
    show (n.val * 16384 + (co.val * 64 + h.val)) * 64 + w.val = ((n.val * 256 + co.val) * 64 + h.val) * 64 + w.val
    omega
  · exact Gk_apply _ _ n _ w co (by show (co.val * 64 + h.val) / 64 = co.val; omega)

/-- THE KERNEL'S RUN, READ: every weakly fair execution terminates with the result buffer at the specification's
    array of the two arguments, and the arguments as launched. -/
theorem run : θ_run (Cert.KernelIdeal.defs (F := Ideal)) (onTc (τ := τ) (Cert.KernelIdeal.main (F := Ideal))) ⟨m, fun _ => 0, ρ⟩
    fun r => ∀ c : Dev nD,
      r.2.mem ((c.tc : Thread nD τ).loc main_v3)
          = Cert.Pool.G (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.RefRun.lean ====
/-
  The reference program's run, with its result named.

  The reference's @main is five segments: a reshape, a first kernel region (the per-channel sums), a stretch of host
  operations (the mean's scale, the 1×1 convolution as a matrix product, the rectifier), a second kernel region (the
  broadcast over the positions) and a last reshape. After the last segment every unscoped buffer holds what the fold
  of the segments over the launch memory says (`Gen.W5`): here that is read at the RESULT buffer as well as at the two
  argument buffers, which end as launched.
-/
import proofs.«177195_g2000004648224564_pallasbulk_117_6_alg».proof.Defs
import proofs.«177195_g2000004648224564_pallasbulk_117_6_alg».proof.Proof.Gen.ReferenceIdeal.Frame

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with the result buffer at the last
    boundary's contents and the argument buffers as launched. -/
theorem run_W5 : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v13 (by decide)),
       (h c _ (mem_uc main_arg0 (by decide))).trans (W5_main_arg0 m ρ c),
       (h c _ (mem_uc main_arg1 (by decide))).trans (W5_main_arg1 m ρ c)⟩)

end Cert.ReferenceIdeal.Hand

end
-- ==== Proof.LibStoreRead.lean ====
/-
  A read of a whole buffer after several whole stores.

  When the LAST store into a buffer went through the whole buffer (the unit rectangle at zero offsets of the buffer's own
  sizes), a later read through the whole buffer returns that store's value, whatever the earlier stores were: an
  accumulator set to zero, then overwritten by its update, then read back, reads the update.
-/
import Idealize.ShloMosaic.Lib.Pipeline.Value
import Idealize.ShloMosaic.Lib.Pipeline.FrameBody

noncomputable section

namespace Idealize.ShloMosaic.StoreRead

open Idealize.ShloMosaic

/-- A read through the whole buffer of what a LAST store through the whole buffer left is that store's value, whatever
    was stored before. -/
theorem readCov_cons_unit_zero {Val : EltTy → Type} [∀ e, Nonempty (Val e)] {sg : RefSig} {κ : Kind} {sp : Space}
    {S : Shape} {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

end Idealize.ShloMosaic.StoreRead

end
-- ==== Proof.RefPool.lean ====
/-
  What the first kernel leaves in its output block, as a function of its input block.

  At every grid point the body zeroes a 512×128 accumulator, adds to it the thirty-two 128-lane slices of the point's
  512×4096 input block (added pairwise in five rounds), and stores the accumulator's row sums as a 1×1×512×1 block.
  First, for any float instance, the stored block is one pure term of the input block (`piece_eq`: the two reads of
  the accumulator return what was last stored whole). Then, at the ideal values, that term at channel `ci` is
  Σ_lane (0 + Σ_slice x(0, ci, slice·128 + lane)) (`pooled_apply`).
-/
import proofs.«177195_g2000004648224564_pallasbulk_117_6_alg».proof.Proof.Gen.ReferenceIdeal.Frame
import proofs.«177195_g2000004648224564_pallasbulk_117_6_alg».proof.Proof.Spec
import proofs.«177195_g2000004648224564_pallasbulk_117_6_alg».proof.Proof.LibLayoutRead
import proofs.«177195_g2000004648224564_pallasbulk_117_6_alg».proof.Proof.LibStoreRead
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.Tactic
open Idealize.ShloMosaic.ValueIdx

namespace Cert.ReferenceIdeal.Hand

open Cert.ReferenceIdeal Cert.ReferenceIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section AnyInstance

variable {F : FTy → Type} [FloatOps F]

/-- The accumulator after the body's one addition: the zero splat plus the thirty-two slices of the block added
    pairwise. -/
def accum (x0 : Vec F S1x512x4096 .f32) : FVec F S512x128 .f32 :=
  k0_pay2 (k0_pay10 x0) (k0_pay11 x0) (k0_pay12 x0) (k0_pay13 x0) (k0_pay14 x0) (k0_pay15 x0) (k0_pay16 x0) (k0_pay17 x0)
    (k0_pay1 (k0_pay6 x0) (k0_pay7 x0) (k0_pay8 x0) (k0_pay9 x0) (k0_pay18 x0) (k0_pay19 x0) (k0_pay20 x0) (k0_pay21 x0)
      (k0_pay22 x0) (k0_pay23 x0))
    (k0_pay4 (F := F))

/-- What the body leaves in the output's staging buffer: the row sums of the accumulator. -/
theorem piece_eq (c : Dev nD) (i : grid0.Coords) (arg3 : Memref sig .tc .vmem S1x512x4096 .f32) (harg3 : arg3.IsWhole)
    (arg4 : Memref sig .tc .vmem S1x1x512x1 .f32) (harg4 : arg4.IsWhole) (arg5 : Memref sig .tc .vmem S512x128 .f32)
    (harg5 : arg5.IsWhole) (hc0 : cond0_0 i) (hc1 : cond0_1 i) (x0 : Vec F S1x512x4096 .f32) :
    out0_A_1 c i arg3 harg3 arg4 harg4 arg5 harg5 hc0 hc1 x0 = k0_pay3 (accum x0) := by
  unfold out0_A_1
  rw [View.read_writes_eq_canon _ _ _ (cover0_A_1 c i arg3 harg3 arg4 harg4 arg5 harg5 hc0 hc1 x0)]
  unfold kernelRun0_A
  dsimp only
  try sl_unfold_words
  rw [View.canon_unit_zero hz4]
  have hx : View.readAt (Elt F) arg3.view
      (Rect.unit ![0, 0, 0] S1x512x4096.size inb_S1x512x4096_S1x512x4096_0_0_0).toLoadRect (harg3.unread x0) = x0 := by
    rw [View.readAt_eq_ld, harg3.read_unread, View.ld_unit_zero (S := S1x512x4096) hz3]
  rw [hx, Idealize.ShloMosaic.StoreRead.readCov_cons_unit_zero (S := S512x128) _ hz2, View.readCov_unit_zero (S := S512x128) _ hz2]
  rfl

end AnyInstance

/-! ## At the ideal values -/

/-- Channel `ci` of a 1×512×4096 block at the flat position `q` (zero past the block's end, which no slice reaches). -/
def gx (x0 : Vec Ideal S1x512x4096 .f32) (ci : Fin 512) (q : ℕ) : EReal :=
  if hq : q < 4096 then x0 (ix3 (0 : Fin 1) ci ⟨q, hq⟩) else 0

/-- The slice of the block from lane offset `o`, at channel `ci` and lane `j`, is the block at position `o + j`. -/
theorem slice_apply (x0 : Vec Ideal S1x512x4096 .f32) (o : ℕ) (h : S512x4096.Slices ![0, o] S512x128)
    (ci : Fin 512) (j : Fin 128) :
    extractStridedSlice S512x128 ![0, o] (k0_pay5 x0) h (ix2 ci j) = gx x0 ci (o + j.val) := by
  have hlt : o + j.val < 4096 := Nat.lt_of_lt_of_le (Nat.add_lt_add_left j.isLt o) (h.2 1)
  rw [slice2_axis1_eq]
  unfold k0_pay5
  rw [shapeCast_1ab_ab_apply]
  unfold gx
  rw [dif_pos hlt]

/-- The accumulator at channel `ci` and lane `j`: zero plus the thirty-two slices' entries. -/
theorem accum_apply (x0 : Vec Ideal S1x512x4096 .f32) (ci : Fin 512) (j : Fin 128) :
    accum x0 (ix2 ci j) = Cert.Pool.floor0 + ∑ s : Fin 32, gx x0 ci (s.val * 128 + j.val) := by
  have ht := Cert.Pool.tree32 (fun s => gx x0 ci (s * 128 + j.val))
  simp only [Nat.reduceMul] at ht
  rw [← ht]
  unfold accum k0_pay2 k0_pay1 k0_pay4 k0_pay6 k0_pay7 k0_pay8 k0_pay9 k0_pay10 k0_pay11 k0_pay12 k0_pay13 k0_pay14 k0_pay15
    k0_pay16 k0_pay17 k0_pay18 k0_pay19 k0_pay20 k0_pay21 k0_pay22 k0_pay23
  simp only [shapeCast_self, addf_apply, broadcast_apply, slice_apply]
  rfl

/-- The stored block at channel `ci`: the sum over the 128 lanes of the accumulator's row. -/
theorem pooled_apply (x0 : Vec Ideal S1x512x4096 .f32) (ci : Fin 512) :
    k0_pay3 (accum x0) (ix4 (0 : Fin 1) (0 : Fin 1) ci (0 : Fin 1))
      = ∑ j : Fin 128, (Cert.Pool.floor0 + ∑ s : Fin 32, gx x0 ci (s.val * 128 + j.val)) := by
  unfold k0_pay3
  refine (shapeCast_apply _ _ _ (ix2 ci (0 : Fin 1)) (by
    rw [Shape.rowMajor_val_four, Shape.rowMajor_val_two]
    show ci.val * 1 + 0 = ((0 * 1 + 0) * 512 + ci.val) * 1 + 0
    omega)).trans ?_
  refine (Idealize.ShloMosaic.LayoutRead.shapeCast_a_a1_apply _ _ ci (0 : Fin 1)).trans ?_
  refine (Idealize.ShloMosaic.LayoutRead.rowSum_apply (accum x0) _ _ _ _ ci).trans ?_
  exact Finset.sum_congr rfl fun j _ => accum_apply x0 ci j

end Cert.ReferenceIdeal.Hand

end
-- ==== Proof.RefBlocks0.lean ====
/-
  The first kernel's result array.

  The first region runs over eight grid points, one per image: point n reads image n's 512×4096 block of the
  flattened batch and writes back channel sums as block n of an [8, 1, 512, 1] array. Each write-back is the block of
  ONE whole-array function `P` of the flattened batch (`flushed0`), and the eight blocks cover the array, so the array
  ends holding `P` (`arr0`): at (n, 0, ci, 0) the sum over 128 lanes of zero plus the 32 slices' entries.
-/
import proofs.«177195_g2000004648224564_pallasbulk_117_6_alg».proof.Proof.RefPool

set_option maxRecDepth 16384

noncomputable section

open scoped BigOperators
open Idealize.ShloMosaic Idealize.ShloMosaic.TcCoe Idealize.SL.Sem
open Idealize.ShloMosaic.ValueIdx
open Idealize.ShloMosaic.Pipeline (Dat)

namespace Cert.ReferenceIdeal.Hand

open Cert.ReferenceIdeal Cert.ReferenceIdeal.Gen

/-- Entry (n, ci, q) of a flattened batch, zero past the row's end (which no slice reaches). -/
def flatAt (X : S8x512x4096.Idx → EReal) (n : Fin 8) (ci : Fin 512) (q : ℕ) : EReal :=
  if hq : q < 4096 then X (ix3 n ci ⟨q, hq⟩) else 0

/-- Channel `ci` of image `n` summed the first kernel's way: over 128 lanes, zero plus the 32 slices. -/
def laneSum (X : S8x512x4096.Idx → EReal) (n : Fin 8) (ci : Fin 512) : EReal :=
  ∑ j : Fin 128, (Cert.Pool.floor0 + ∑ s : Fin 32, flatAt X n ci (s.val * 128 + j.val))

/-- The first kernel's result array as a function of the flattened batch. -/
def P (X : S8x512x4096.Idx → EReal) : S8x1x512x1.Idx → EReal := fun i => laneSum X (i 0) (i 2)

/-- One point's stored block against `P`: if the input block is image `n`'s rows of `X`, the stored block at `y` is `P X` at
    an index of image `n` and of `y`'s channel. -/
theorem block_eq (X : S8x512x4096.Idx → EReal) (x0 : Vec Ideal S1x512x4096 .f32) (n : Fin 8)
    (hx : ∀ (ci : Fin 512) (q : Fin 4096), x0 (ix3 (0 : Fin 1) ci q) = X (ix3 n ci q))
    (y : S1x1x512x1.Idx) (i : S8x1x512x1.Idx) (hi0 : (i 0).val = n.val) (hi2 : (i 2).val = (y 2).val) :
    k0_pay3 (accum x0) y = P X i := by
  obtain ⟨a, b, ci, d, rfl⟩ : ∃ (a : Fin 1) (b : Fin 1) (ci : Fin 512) (d : Fin 1), y = ix4 a b ci d :=
    ⟨y 0, y 1, y 2, y 3, eq_ix4 y⟩
  obtain rfl : a = 0 := Subsingleton.elim _ _
  obtain rfl : b = 0 := Subsingleton.elim _ _
  obtain rfl : d = 0 := Subsingleton.elim _ _
  rw [pooled_apply]
  unfold P laneSum
  have e0 : (i 0 : Fin 8) = n := Fin.ext hi0
  have e2 : (i 2 : Fin 512) = ci := Fin.ext hi2
  rw [e0, e2]
  refine Finset.sum_congr rfl fun j _ => congrArg _ (Finset.sum_congr rfl fun s _ => ?_)
  unfold gx flatAt
  by_cases hq : s.val * 128 + j.val < 4096
  · rw [dif_pos hq, dif_pos hq]; exact hx ci ⟨_, hq⟩
  · rw [dif_neg hq, dif_neg hq]

section Region

variable (V : (c : Dev nD) → (b : Ref sig .tc) → Buf (Elt Ideal) ((c : Thread nD τ).loc b))

/-- The printed index maps over the grid: point t's blocks are image t's. -/
theorem idx0 : ∀ t : Fin cfg0.N, win0_0.index t (0 : Fin 3) = t.val ∧ win0_0.index t (1 : Fin 3) = 0
    ∧ win0_0.index t (2 : Fin 3) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- What point `t` writes back is block `t` of `P` of the flattened batch as the region finds it. -/
theorem flushed0 (c : Dev nD) (t : Fin cfg0.N) :
    (dat0 V c).flushed 1 t = ((cfg0.win 1).blk t).view.read (Elt Ideal) (P (V c main_v0)) := by
  show (cfg0.win 1).cut (grid0.coords t) ((dat0 V c).after 1 t) = _
  rw [after0_1]
  unfold outsAt0
  rw [piece_eq]
  obtain ⟨e0, e1, e2, f0, f1, f2, f3⟩ := idx0 t
  have hN : cfg0.N = 8 := N_0
  have ht : t.val < 8 := by have := t.isLt; omega
  funext y
  show k0_pay3 (accum (iblk0 V c 0 t)) y = P (V c main_v0) (((cfg0.win 1).blk t).view.emb y)
  refine block_eq (V c main_v0) (iblk0 V c 0 t) ⟨t.val, ht⟩ (fun ci q => ?_) y _ ?_ ?_
  · unfold iblk0
    rw [View.read_apply]
    show V c main_v0 _ = V c main_v0 _
    congr 1
    funext a
    apply Fin.ext
    match a with
    | ⟨0, _⟩ => show win0_0.index t 0 * 1 + 1 * 0 = t.val; omega
    | ⟨1, _⟩ => show win0_0.index t 1 * 512 + 1 * ci.val = ci.val; omega
    | ⟨2, _⟩ => show win0_0.index t 2 * 4096 + 1 * q.val = q.val; omega
  · show win0_1.index t 0 * 1 + 1 * (y 0).val = t.val
    have hy : (y 0).val < 1 := (y 0).isLt
    omega
  · show win0_1.index t 2 * 512 + 1 * (y 2).val = (y 2).val
    omega

/-- An index of the result array is in point `t`'s block iff each coordinate is in the block's range on its axis. -/
theorem mem_blk0 (t : Fin cfg0.N) (i : S8x1x512x1.Idx) :
    i ∈ ((cfg0.win 1).blk t).view.set ↔ ∀ a : Fin 4, win0_1.index t a * S1x1x512x1.size a ≤ (i a).val
      ∧ (i a).val < win0_1.index t a * S1x1x512x1.size a + S1x1x512x1.size a := by
  show i ∈ ((View.whole main_v1).slice (win0_1.rect t)).set ↔ _
  rw [View.set_slice_whole, Rect.mem_set_unit]
  exact Iff.rfl

/-- The result array after the region: `P` of the flattened batch as the region finds it (image n's block is point n's). -/
theorem arr0 (c : Dev nD) : (dat0 V c).arrAt 1 cfg0.N = P (V c main_v0) :=
  (dat0 V c).arrAt_eq_of_cover 1 (P (V c main_v0)) (fun t _ => flushed0 V c t) fun i => by
    have hN : cfg0.N = 8 := N_0
    have h0 : (i 0).val < 8 := (i 0).isLt
    have h1 : (i 1).val < 1 := (i 1).isLt
    have h2 : (i 2).val < 512 := (i 2).isLt
    have h3 : (i 3).val < 1 := (i 3).isLt
    obtain ⟨t, htv⟩ : ∃ t : Fin cfg0.N, t.val = (i 0).val := ⟨⟨(i 0).val, by omega⟩, rfl⟩
    refine ⟨t, flush0_1 t, ?_⟩
    rw [mem_blk0]
    obtain ⟨e0, e1, e2, f0, f1, f2, f3⟩ := idx0 t
    intro a
    match a with
    | ⟨0, _⟩ =>
      show win0_1.index t 0 * 1 ≤ (i 0).val ∧ (i 0).val < win0_1.index t 0 * 1 + 1
      omega
    | ⟨1, _⟩ =>
      show win0_1.index t 1 * 1 ≤ (i 1).val ∧ (i 1).val < win0_1.index t 1 * 1 + 1
      omega
    | ⟨2, _⟩ =>
      show win0_1.index t 2 * 512 ≤ (i 2).val ∧ (i 2).val < win0_1.index t 2 * 512 + 512
      omega
    | ⟨3, _⟩ =>
      show win0_1.index t 3 * 1 ≤ (i 3).val ∧ (i 3).val < win0_1.index t 3 * 1 + 1
      omega

end Region

end Cert.ReferenceIdeal.Hand

end
-- ==== Proof.RefBlocks1.lean ====
/-
  The second kernel's result array.

  The second region runs over eight grid points, one per image: point n reads image n's 256×1 column of the rectified
  convolution and writes back block n of an [8, 256, 4096] array, every one of the 4096 positions of a channel holding
  the column's entry. Each write-back is the block of ONE whole-array function `B` of the column array (`flushed1`),
  and the eight blocks cover the array, so the array ends holding `B` (`arr1`).
-/
import proofs.«177195_g2000004648224564_pallasbulk_117_6_alg».proof.Proof.RefPool

set_option maxRecDepth 16384

noncomputable section

open Idealize.ShloMosaic Idealize.ShloMosaic.TcCoe Idealize.SL.Sem
open Idealize.ShloMosaic.ValueIdx
open Idealize.ShloMosaic.Pipeline (Dat)

namespace Cert.ReferenceIdeal.Hand

open Cert.ReferenceIdeal Cert.ReferenceIdeal.Gen

/-- The second kernel's result array as a function of the column array: constant along the positions. -/
def B (Y : S8x256x1.Idx → EReal) : S8x256x4096.Idx → EReal := fun i => Y (ix3 (i 0) (i 1) (0 : Fin 1))

/-- The stored block at channel `co` and position `q` is the input column's entry at `co`. -/
theorem spread_apply (x0 : Vec Ideal S1x256x1 .f32) (co : Fin 256) (q : Fin 4096) :
    k1_pay1 x0 (ix3 (0 : Fin 1) co q) = x0 (ix3 (0 : Fin 1) co (0 : Fin 1)) := by
  unfold k1_pay1
  refine (Idealize.ShloMosaic.LayoutRead.broadcastTo_ab1_abc_apply _ _ (0 : Fin 1) co q).trans ?_
  simp only [shapeCast_self]

/-- One point's stored block against `B`: if the input block is image `n`'s column of `Y`, the stored block at `y` is `B Y` at
    an index of image `n` and of `y`'s channel. -/
theorem block_eq1 (Y : S8x256x1.Idx → EReal) (x0 : Vec Ideal S1x256x1 .f32) (n : Fin 8)
    (hx : ∀ co : Fin 256, x0 (ix3 (0 : Fin 1) co (0 : Fin 1)) = Y (ix3 n co (0 : Fin 1)))
    (y : S1x256x4096.Idx) (i : S8x256x4096.Idx) (hi0 : (i 0).val = n.val) (hi1 : (i 1).val = (y 1).val) :
    k1_pay1 x0 y = B Y i := by
  obtain ⟨a, co, q, rfl⟩ : ∃ (a : Fin 1) (co : Fin 256) (q : Fin 4096), y = ix3 a co q := ⟨y 0, y 1, y 2, eq_ix3 y⟩
  obtain rfl : a = 0 := Subsingleton.elim _ _
  rw [spread_apply, hx]
  unfold B
  have e0 : (i 0 : Fin 8) = n := Fin.ext hi0
  have e1 : (i 1 : Fin 256) = co := Fin.ext hi1
  rw [e0, e1]

section Region

variable (V : (c : Dev nD) → (b : Ref sig .tc) → Buf (Elt Ideal) ((c : Thread nD τ).loc b))

/-- The printed index maps over the grid: point t's blocks are image t's. -/
theorem idx1 : ∀ t : Fin cfg1.N, win1_0.index t (0 : Fin 3) = t.val ∧ win1_0.index t (1 : Fin 3) = 0
    ∧ win1_0.index t (2 : Fin 3) = 0 ∧ win1_1.index t (0 : Fin 3) = t.val ∧ win1_1.index t (1 : Fin 3) = 0
    ∧ win1_1.index t (2 : Fin 3) = 0 :=
  (by decide +kernel : ∀ t : Fin grid1.N, _)

/-- What point `t` writes back is block `t` of `B` of the column array as the region finds it. -/
theorem flushed1 (c : Dev nD) (t : Fin cfg1.N) :
    (dat1 V c).flushed 1 t = ((cfg1.win 1).blk t).view.read (Elt Ideal) (B (V c main_v11)) := by
  show (cfg1.win 1).cut (grid1.coords t) ((dat1 V c).after 1 t) = _
  rw [after1_1]
  unfold out1_1
  rw [View.canon_unit_zero hz3]
  simp only [View.ld_unit_zero (S := S1x256x1) hz3]
  obtain ⟨e0, e1, e2, f0, f1, f2⟩ := idx1 t
  have hN : cfg1.N = 8 := N_1
  have ht : t.val < 8 := by have := t.isLt; omega
  funext y
  show k1_pay1 (iblk1 V c 0 t) y = B (V c main_v11) (((cfg1.win 1).blk t).view.emb y)
  refine block_eq1 (V c main_v11) (iblk1 V c 0 t) ⟨t.val, ht⟩ (fun co => ?_) y _ ?_ ?_
  · unfold iblk1
    rw [View.read_apply]
    show V c main_v11 _ = V c main_v11 _
    congr 1
    funext a
    apply Fin.ext
    match a with
    | ⟨0, _⟩ => show win1_0.index t 0 * 1 + 1 * 0 = t.val; omega
    | ⟨1, _⟩ => show win1_0.index t 1 * 256 + 1 * co.val = co.val; omega
    | ⟨2, _⟩ => show win1_0.index t 2 * 1 + 1 * 0 = 0; omega
  · show win1_1.index t 0 * 1 + 1 * (y 0).val = t.val
    have hy : (y 0).val < 1 := (y 0).isLt
    omega
  · show win1_1.index t 1 * 256 + 1 * (y 1).val = (y 1).val
    omega

/-- An index of the result array is in point `t`'s block iff each coordinate is in the block's range on its axis. -/
theorem mem_blk1 (t : Fin cfg1.N) (i : S8x256x4096.Idx) :
    i ∈ ((cfg1.win 1).blk t).view.set ↔ ∀ a : Fin 3, win1_1.index t a * S1x256x4096.size a ≤ (i a).val
      ∧ (i a).val < win1_1.index t a * S1x256x4096.size a + S1x256x4096.size a := by
  show i ∈ ((View.whole main_v12).slice (win1_1.rect t)).set ↔ _
  rw [View.set_slice_whole, Rect.mem_set_unit]
  exact Iff.rfl

/-- The result array after the region: `B` of the column array as the region finds it (image n's block is point n's). -/
theorem arr1 (c : Dev nD) : (dat1 V c).arrAt 1 cfg1.N = B (V c main_v11) :=
  (dat1 V c).arrAt_eq_of_cover 1 (B (V c main_v11)) (fun t _ => flushed1 V c t) fun i => by
    have hN : cfg1.N = 8 := N_1
    have h0 : (i 0).val < 8 := (i 0).isLt
    have h1 : (i 1).val < 256 := (i 1).isLt
    have h2 : (i 2).val < 4096 := (i 2).isLt
    obtain ⟨t, htv⟩ : ∃ t : Fin cfg1.N, t.val = (i 0).val := ⟨⟨(i 0).val, by omega⟩, rfl⟩
    refine ⟨t, flush1_1 t, ?_⟩
    rw [mem_blk1]
    obtain ⟨e0, e1, e2, f0, f1, f2⟩ := idx1 t
    intro a
    match a with
    | ⟨0, _⟩ =>
      show win1_1.index t 0 * 1 ≤ (i 0).val ∧ (i 0).val < win1_1.index t 0 * 1 + 1
      omega
    | ⟨1, _⟩ =>
      show win1_1.index t 1 * 256 ≤ (i 1).val ∧ (i 1).val < win1_1.index t 1 * 256 + 256
      omega
    | ⟨2, _⟩ =>
      show win1_1.index t 2 * 4096 ≤ (i 2).val ∧ (i 2).val < win1_1.index t 2 * 4096 + 4096
      omega

end Region

end Cert.ReferenceIdeal.Hand

end
-- ==== Proof.RefHost.lean ====
/-
  The reference's host operations, read.

  Before the first region the batch is flattened ([8,512,64,64] → [8,512,4096]); after the second the result is unflattened
  ([8,256,4096] → [8,256,64,64]). Between the regions thirteen operations turn the first kernel's sums `Pa` ([8,1,512,1]) and
  the weight `Wt` ([256,512,1,1]) into the column array the second kernel spreads (`mid`): the sum over the unit axis from
  zero, times the scale 2⁻¹², the matrix product with the weight transposed, the maximum with zero. At image n and output
  channel co that is max (Σ_ci ((0 + Σ_p Pa(n, p, ci, 0)) · 2⁻¹²) · Wt(co, ci, 0, 0)) 0 (`mid_apply`).
-/
import proofs.«177195_g2000004648224564_pallasbulk_117_6_alg».proof.Proof.Gen.ReferenceIdeal.Frame
import proofs.«177195_g2000004648224564_pallasbulk_117_6_alg».proof.Proof.Spec
import proofs.«177195_g2000004648224564_pallasbulk_117_6_alg».proof.Proof.LibLayoutRead
import proofs.«177195_g2000004648224564_pallasbulk_117_6_alg».proof.Proof.LibPlainDot
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem Idealize.ShloMosaic.Tactic
open Idealize.ShloMosaic.ValueIdx

namespace Cert.ReferenceIdeal.Hand

open Cert.ReferenceIdeal Cert.ReferenceIdeal.Gen

/-- The channel means: the first kernel's sums added over their unit axis from zero, times the scale. -/
def pooledMean (Pa : FVec Ideal S8x1x512x1 .f32) : FVec Ideal S8x512 .f32 :=
  mulf
    (shapeCast S8x512
      (Host.reduceAdd (F := Ideal) Pa (constant (F := Ideal) S_ .f32 0x00000000#32) reducesTo_S8x1x512x1_S8x512x1_d1 h_S_)
      shapeCasts_S8x512x1_S8x512)
    (broadcastInDim S8x512 ![] bcast_S_S8x512 (constant (F := Ideal) S_ .f32 0x39800000#32))

/-- The weight as a 512×256 matrix: its unit axes dropped, then transposed. -/
def weightT (Wt : FVec Ideal S256x512x1x1 .f32) : FVec Ideal S512x256 .f32 :=
  transpose S512x256 [1, 0] (shapeCast S256x512 Wt shapeCasts_S256x512x1x1_S256x512) transposes_S256x512_S512x256_1_0

/-- The host operations between the two regions as one function of the first kernel's sums and the weight. -/
def mid (Pa : FVec Ideal S8x1x512x1 .f32) (Wt : FVec Ideal S256x512x1x1 .f32) : FVec Ideal S8x256x1 .f32 :=
  shapeCast S8x256x1
    (maximumf
      (Host.dotGeneral (F := Ideal) dot_S8x512_S512x256_S8x256_1_0_0_1_n_n (some .fp32) (pooledMean Pa) (weightT Wt))
      (broadcastInDim S8x256 ![] bcast_S_S8x256 (constant (F := Ideal) S_ .f32 0x00000000#32)))
    shapeCasts_S8x256_S8x256x1

theorem pooledMean_apply (Pa : FVec Ideal S8x1x512x1 .f32) (n : Fin 8) (ci : Fin 512) :
    pooledMean Pa (ix2 n ci)
      = (Cert.Pool.floor0 + ∑ p : Fin 1, Pa (ix4 n p ci (0 : Fin 1))) * Cert.Pool.scale := by
  unfold pooledMean
  show _ * _ = _
  congr 1
  · refine (shapeCast_apply _ _ _ (ix3 n ci (0 : Fin 1)) (by
      rw [Shape.rowMajor_val_three, Shape.rowMajor_val_two]
      show (n.val * 512 + ci.val) * 1 + 0 = n.val * 512 + ci.val
      omega)).trans ?_
    unfold Host.reduceAdd
    rw [Ideal.hostReduceAdd_def]
    refine (Ideal.hostReduceAdd_single _ (by decide) _ _ _).trans ?_
    congr 1
    refine Finset.sum_congr rfl fun p _ => congrArg Pa ?_
    funext d
    apply Fin.ext
    match d with
    | ⟨0, _⟩ => rfl
    | ⟨1, _⟩ => rfl
    | ⟨2, _⟩ => rfl
    | ⟨3, _⟩ => rfl

theorem weightT_apply (Wt : FVec Ideal S256x512x1x1 .f32) (ci : Fin 512) (co : Fin 256) :
    weightT Wt (ix2 ci co) = Wt (ix4 co ci (0 : Fin 1) (0 : Fin 1)) := by
  unfold weightT
  refine (transpose_ix2_apply _ _ ci co).trans ?_
  exact shapeCast_apply _ _ _ _ (by
    rw [Shape.rowMajor_val_four, Shape.rowMajor_val_two]
    show ((co.val * 512 + ci.val) * 1 + 0) * 1 + 0 = co.val * 512 + ci.val
    omega)

/-- The column array at image `n` and output channel `co`. -/
theorem mid_apply (Pa : FVec Ideal S8x1x512x1 .f32) (Wt : FVec Ideal S256x512x1x1 .f32) (n : Fin 8) (co : Fin 256) :
    mid Pa Wt (ix3 n co (0 : Fin 1))
      = max (∑ ci : Fin 512, ((Cert.Pool.floor0 + ∑ p : Fin 1, Pa (ix4 n p ci (0 : Fin 1))) * Cert.Pool.scale)
            * Wt (ix4 co ci (0 : Fin 1) (0 : Fin 1))) Cert.Pool.floor0 := by
  unfold mid
  refine (Idealize.ShloMosaic.LayoutRead.shapeCast_ab_ab1_apply _ _ n co (0 : Fin 1)).trans ?_
  show max _ _ = _
  congr 1
  · refine (Idealize.ShloMosaic.PlainDot.dotGeneral_apply (M := 8) (K := 512) (N := 256) (some .fp32) .single
      (pooledMean Pa) (weightT Wt) n co).trans ?_
    exact Finset.sum_congr rfl fun ci _ => by rw [pooledMean_apply, weightT_apply]

/-! ## The three stretches over the run's boundary contents -/

variable (m : (ℓ : Loc nD τ sig) → Buf (Elt Ideal) ℓ) (ρ : Dev nD → PrngReg)

/-- The first region finds the batch flattened. -/
theorem V1_main_v0 (c : Dev nD) :
    (V1 m ρ c main_v0 : S8x512x4096.Idx → EReal)
      = shapeCast S8x512x4096 (m ((c : Thread nD τ).loc main_arg0)) shapeCasts_S8x512x64x64_S8x512x4096 := by
  show StableHlo.after hostOps0 (W0 m ρ c) (Proc.devRef .tc main_v0) = _
  after_results
  rfl

/-- The second region finds the column array: `mid` of what the first region left and of the weight. -/
theorem V3_main_v11 (c : Dev nD) :
    (V3 m ρ c main_v11 : S8x256x1.Idx → EReal)
      = mid (W2 m ρ c (Proc.devRef .tc main_v1)) (W2 m ρ c (Proc.devRef .tc main_arg1)) := by
  show StableHlo.after hostOps1 (W2 m ρ c) (Proc.devRef .tc main_v11) = _
  after_results
  rfl

/-- The result is what the second region left, unflattened. -/
theorem W5_main_v13 (c : Dev nD) :
    (W5 m ρ c (Proc.devRef .tc main_v13) : S8x256x64x64.Idx → EReal)
      = shapeCast S8x256x64x64 (W4 m ρ c (Proc.devRef .tc main_v12)) shapeCasts_S8x256x4096_S8x256x64x64 := by
  show StableHlo.after hostOps2 (W4 m ρ c) (Proc.devRef .tc main_v13) = _
  after_results
  rfl

/-- The weight is still as launched after the first region: the first stretch and the region do not write it. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

end Cert.ReferenceIdeal.Hand

end
-- ==== Proof.RefValue.lean ====
/-
  The reference's result is the pooled 1×1 convolution.

  Through the run's boundaries: the result is the second kernel's array unflattened; that array spreads the column array
  over the positions; the column array is `mid` of the first kernel's array and the weight; the first kernel's array is
  `P` of the flattened batch. At (n, co, h, w) this is
      max (Σ_ci ((0 + Σ_p laneSum(n, ci)) · 2⁻¹²) · W(co, ci, 0, 0)) 0,
  and laneSum(n, ci) — 128 lanes of zero plus 32 slices of the flattened channel — is the channel's sum over its 64×64
  positions (the two arrangements cover the same 4096 flat positions: `Cert.Pool.sum_lanes_eq_rows`). The sum over the unit
  axis has one term, zero is the additive unit, and the product commutes: the result is `Cert.Pool.G` of the arguments.
  Only the monoid laws of + and the commutativity of · on the extended reals are used: nothing asks the inputs to be finite.
-/
import proofs.«177195_g2000004648224564_pallasbulk_117_6_alg».proof.Proof.RefRun
import proofs.«177195_g2000004648224564_pallasbulk_117_6_alg».proof.Proof.RefBlocks0
import proofs.«177195_g2000004648224564_pallasbulk_117_6_alg».proof.Proof.RefBlocks1
import proofs.«177195_g2000004648224564_pallasbulk_117_6_alg».proof.Proof.RefHost

set_option maxRecDepth 16384

noncomputable section

open scoped BigOperators
open Idealize.ShloMosaic Idealize.ShloMosaic.TcCoe Idealize.SL.Sem
open Idealize.ShloMosaic.ValueIdx

namespace Cert.ReferenceIdeal.Hand

open Cert.ReferenceIdeal Cert.ReferenceIdeal.Gen

/-- The flattened batch at the flat position row·64 + column is the batch at (row, column). -/
theorem flat_apply (A0 : FVec Ideal S8x512x64x64 .f32) (n : Fin 8) (ci : Fin 512) (h w : Fin 64) :
    flatAt (shapeCast S8x512x4096 A0 shapeCasts_S8x512x64x64_S8x512x4096) n ci (h.val * 64 + w.val) = A0 (ix4 n ci h w) := by
  have hq : h.val * 64 + w.val < 4096 := by omega
  unfold flatAt
  rw [dif_pos hq]
  exact shapeCast_apply _ _ _ _ (by
    rw [Shape.rowMajor_val_four, Shape.rowMajor_val_three]
    show ((n.val * 512 + ci.val) * 64 + h.val) * 64 + w.val = (n.val * 512 + ci.val) * 4096 + (h.val * 64 + w.val)
    omega)

/-- The first kernel's arrangement of a channel's sum is the sum over its 64×64 positions. -/
theorem laneSum_eq_pool (A0 : FVec Ideal S8x512x64x64 .f32) (n : Fin 8) (ci : Fin 512) :
    laneSum (shapeCast S8x512x4096 A0 shapeCasts_S8x512x64x64_S8x512x4096) n ci = Cert.Pool.pool A0 n ci := by
  unfold laneSum Cert.Pool.pool
  simp only [Cert.Pool.floor0, Ideal.ofBits_zero_f32, zero_add]
  rw [Cert.Pool.sum_lanes_eq_rows (fun q => flatAt (shapeCast S8x512x4096 A0 shapeCasts_S8x512x64x64_S8x512x4096) n ci q)]
  exact Finset.sum_congr rfl fun h _ => Finset.sum_congr rfl fun w _ => flat_apply A0 n ci h w

/-- The column array built from the first kernel's arrangement of the flattened batch is the pooled 1×1 convolution:
    the one-term sum over the unit axis, the zero, and the order of the product drop out. -/
theorem mid_eq_conv (A0 : FVec Ideal S8x512x64x64 .f32) (Wt : FVec Ideal S256x512x1x1 .f32) (n : Fin 8) (co : Fin 256) :
    mid (P (shapeCast S8x512x4096 A0 shapeCasts_S8x512x64x64_S8x512x4096)) Wt (ix3 n co (0 : Fin 1))
      = Cert.Pool.conv A0 Wt n co := by
  rw [mid_apply]
  unfold Cert.Pool.conv
  congr 1
  refine Finset.sum_congr rfl fun ci _ => ?_
  have hp : ∀ p : Fin 1, P (shapeCast S8x512x4096 A0 shapeCasts_S8x512x64x64_S8x512x4096) (ix4 n p ci (0 : Fin 1))
      = laneSum (shapeCast S8x512x4096 A0 shapeCasts_S8x512x64x64_S8x512x4096) n ci := fun _ => rfl
  simp only [hp, Fin.sum_univ_one, laneSum_eq_pool, Cert.Pool.floor0, Ideal.ofBits_zero_f32, zero_add]
  exact mul_comm _ _

variable (m : (ℓ : Loc nD τ sig) → Buf (Elt Ideal) ℓ) (ρ : Dev nD → PrngReg)

/-- The result buffer at the last boundary: the pooled 1×1 convolution of the argument arrays. -/
theorem result_eq (c : Dev nD) :
    (W5 m ρ c (Proc.devRef .tc main_v13) : S8x256x64x64.Idx → EReal)
      = Cert.Pool.G (m ((c.tc : Thread nD τ).loc main_arg0)) (m ((c.tc : Thread nD τ).loc main_arg1)) := by
  have h4 : (W4 m ρ c (Proc.devRef .tc main_v12) : S8x256x4096.Idx → EReal) = B (V3 m ρ c main_v11) :=
    (W4_arr m ρ c 1).trans (arr1 (V3 m ρ) c)
  have h2 : (W2 m ρ c (Proc.devRef .tc main_v1) : S8x1x512x1.Idx → EReal) = P (V1 m ρ c main_v0) :=
    (W2_arr m ρ c 1).trans (arr0 (V1 m ρ) c)
  rw [W5_main_v13]
  funext i
  obtain ⟨n, co, h, w, rfl⟩ : ∃ (n : Fin 8) (co : Fin 256) (h : Fin 64) (w : Fin 64), i = ix4 n co h w :=
    ⟨i 0, i 1, i 2, i 3, eq_ix4 i⟩
  rw [Cert.Pool.G_apply]
  refine (shapeCast_apply _ _ _ (ix3 n co (⟨h.val * 64 + w.val, by omega⟩ : Fin 4096)) (by
    rw [Shape.rowMajor_val_three, Shape.rowMajor_val_four]
    show (n.val * 256 + co.val) * 4096 + (h.val * 64 + w.val) = ((n.val * 256 + co.val) * 64 + h.val) * 64 + w.val
    omega)).trans ?_
  rw [h4]
  show V3 m ρ c main_v11 (ix3 n co (0 : Fin 1)) = _
  rw [V3_main_v11, W2_main_arg1, h2, V1_main_v0]
  exact mid_eq_conv _ _ n co

/-- Every weakly fair execution of the reference terminates, nothing faulting, with the result buffer holding the pooled
    1×1 convolution of the argument arrays and the argument buffers as launched. -/
theorem run : θ_run defs (onTc (τ := τ) (main (F := Ideal))) ⟨m, fun _ => 0, ρ⟩ (fun r => ∀ c : Dev nD,
      r.2.mem ((c.tc : Thread nD τ).loc main_v13)
        = Cert.Pool.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_W5 m ρ)

end Cert.ReferenceIdeal.Hand

end
-- ==== Proof.lean ====
/-
  An image-pooling branch, fused against tiled: the proof of `Cert.Claim`.

  Both programs take a batch x of eight 512-channel 64×64 images and a 256×512 weight (a 1×1 convolution), and produce for
  every image n and output channel co the value
      conv(n, co) = max (Σ_ci W(co, ci) · ((Σ_{h,w} x(n, ci, h, w)) · 2⁻¹²)) 0
  at all 64×64 positions (`Cert.Pool.G`, Proof/Spec.lean). The kernel does it in one region, one image per grid point:
  it sums each channel's rows, then its columns, scales, multiplies by the weight and rectifies, and stores the value over
  the positions (Proof/KernelPayload, KernelArrays, KernelBlocks, KernelRun). The reference does it in two regions with host
  operations between: a first kernel sums each channel as 128 lanes of 32 slices (Proof/RefPool, RefBlocks0), the host scales,
  multiplies by the transposed weight and rectifies (Proof/RefHost), a second kernel spreads the result over the positions
  (Proof/RefBlocks1), and the boundaries chain through (Proof/RefRun, RefValue).

  At the ideal values the two results are the same function of the arguments, entry by entry: the pooling sums range over
  the same 4096 positions in different orders and groupings, a sum over a unit axis has one term, zero is the additive
  unit, and the product commutes. These are the commutative-monoid laws of + and the commutativity of · on the extended
  reals, which hold at the infinities too: the precondition (finite inputs) is not used. The ideal pass rewrote nothing in
  the kernel, so the preservation claim is `True`.
-/
import proofs.«177195_g2000004648224564_pallasbulk_117_6_alg».proof.Defs
import proofs.«177195_g2000004648224564_pallasbulk_117_6_alg».proof.Proof.Gen.Kernel
import proofs.«177195_g2000004648224564_pallasbulk_117_6_alg».proof.Proof.Gen.Kernel.Frame
import proofs.«177195_g2000004648224564_pallasbulk_117_6_alg».proof.Proof.Gen.KernelIdeal
import proofs.«177195_g2000004648224564_pallasbulk_117_6_alg».proof.Proof.Gen.KernelIdeal.Frame
import proofs.«177195_g2000004648224564_pallasbulk_117_6_alg».proof.Proof.Gen.ReferenceIdeal
import proofs.«177195_g2000004648224564_pallasbulk_117_6_alg».proof.Proof.Gen.ReferenceIdeal.Frame
import proofs.«177195_g2000004648224564_pallasbulk_117_6_alg».proof.Proof.Gen.Pre_finite_inputs
import proofs.«177195_g2000004648224564_pallasbulk_117_6_alg».proof.Proof.KernelRun
import proofs.«177195_g2000004648224564_pallasbulk_117_6_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged. -/
theorem frame_referenceIdeal : Cert.frame_ReferenceIdeal := fun m ρ _ => Cert.ReferenceIdeal.Gen.frame m ρ

/-- From memories agreeing on the arguments both idealized programs end with the pooled 1×1 convolution of the
    arguments in their result buffers, and their arguments unchanged. -/
theorem algebraic : Cert.algebraic_KernelIdeal_ReferenceIdeal := by
  intro m ρ m' ρ' _ hagree
  refine ⟨fun c => Cert.Pool.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun r h c => ⟨(h c).1.trans ?_, (h c).2⟩)
    (Cert.ReferenceIdeal.Hand.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
